-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : IVec S2x600000 32) (main_arg2 : FVec F S128x128 .f32) (main_arg3 : FVec F S128 .f32) (main_arg4 : FVec F S128 .f32) (main_arg5 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_v13 main_v16
-- ==== Kernel.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S5000x128 : Shape := ⟨2, ![5000, 128]⟩
abbrev S1x600000 : Shape := ⟨2, ![1, 600000]⟩
abbrev S600000 : Shape := ⟨1, ![600000]⟩
abbrev S_ : Shape := ⟨0, ![]⟩
abbrev S50000 : Shape := ⟨1, ![50000]⟩
abbrev S600000x1 : Shape := ⟨2, ![600000, 1]⟩
abbrev S600000x128 : Shape := ⟨2, ![600000, 128]⟩
abbrev S50000x1 : Shape := ⟨2, ![50000, 1]⟩
abbrev S1x128 : Shape := ⟨2, ![1, 128]⟩
abbrev S5000x1 : Shape := ⟨2, ![5000, 1]⟩
abbrev S5000 : Shape := ⟨1, ![5000]⟩

abbrev nBuf : Space → Nat
  | .hbm => 62
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S50000x128, .f32⟩
  | .hbm, ⟨7, _⟩ => ⟨S1x600000, .i32⟩
  | .hbm, ⟨8, _⟩ => ⟨S600000, .i32⟩
  | .hbm, ⟨9, _⟩ => ⟨S1x600000, .i32⟩
  | .hbm, ⟨10, _⟩ => ⟨S600000, .i32⟩
  | .hbm, ⟨11, _⟩ => ⟨S_, .f32⟩
  | .hbm, ⟨12, _⟩ => ⟨S600000, .f32⟩
  | .hbm, ⟨13, _⟩ => ⟨S_, .f32⟩
  | .hbm, ⟨14, _⟩ => ⟨S50000, .f32⟩
  | .hbm, ⟨15, _⟩ => ⟨S600000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .f32⟩
  | .hbm, ⟨20, _⟩ => ⟨S50000, .f32⟩
  | .hbm, ⟨21, _⟩ => ⟨S_, .i32⟩
  | .hbm, ⟨22, _⟩ => ⟨S600000, .i32⟩
  | .hbm, ⟨23, _⟩ => ⟨S600000, .i1⟩
  | .hbm, ⟨24, _⟩ => ⟨S_, .i32⟩
  | .hbm, ⟨25, _⟩ => ⟨S600000, .i32⟩
  | .hbm, ⟨26, _⟩ => ⟨S600000, .i32⟩
  | .hbm, ⟨27, _⟩ => ⟨S600000, .i32⟩
  | .hbm, ⟨28, _⟩ => ⟨S600000x1, .i32⟩
  | .hbm, ⟨29, _⟩ => ⟨S600000, .f32⟩
  | .hbm, ⟨30, _⟩ => ⟨S_, .i32⟩
  | .hbm, ⟨31, _⟩ => ⟨S600000, .i32⟩
  | .hbm, ⟨32, _⟩ => ⟨S600000, .i1⟩
  | .hbm, ⟨33, _⟩ => ⟨S_, .i32⟩
  | .hbm, ⟨34, _⟩ => ⟨S600000, .i32⟩
  | .hbm, ⟨35, _⟩ => ⟨S600000, .i32⟩
  | .hbm, ⟨36, _⟩ => ⟨S600000, .i32⟩
  | .hbm, ⟨37, _⟩ => ⟨S600000x1, .i32⟩
  | .hbm, ⟨38, _⟩ => ⟨S600000, .f32⟩
  | .hbm, ⟨39, _⟩ => ⟨S600000, .f32⟩
  | .hbm, ⟨40, _⟩ => ⟨S_, .i32⟩
  | .hbm, ⟨41, _⟩ => ⟨S600000, .i32⟩
  | .hbm, ⟨42, _⟩ => ⟨S600000, .i1⟩
  | .hbm, ⟨43, _⟩ => ⟨S_, .i32⟩
  | .hbm, ⟨44, _⟩ => ⟨S600000, .i32⟩
  | .hbm, ⟨45, _⟩ => ⟨S600000, .i32⟩
  | .hbm, ⟨46, _⟩ => ⟨S600000, .i32⟩
  | .hbm, ⟨47, _⟩ => ⟨S600000x1, .i32⟩
  | .hbm, ⟨48, _⟩ => ⟨S600000x128, .f32⟩
  | .hbm, ⟨49, _⟩ => ⟨S600000x1, .f32⟩
  | .hbm, ⟨50, _⟩ => ⟨S600000x128, .f32⟩
  | .hbm, ⟨51, _⟩ => ⟨S600000x128, .f32⟩
  | .hbm, ⟨52, _⟩ => ⟨S_, .f32⟩
  | .hbm, ⟨53, _⟩ => ⟨S50000x128, .f32⟩
  | .hbm, ⟨54, _⟩ => ⟨S600000x1, .i32⟩
  | .hbm, ⟨55, _⟩ => ⟨S50000x128, .f32⟩
  | .hbm, ⟨56, _⟩ => ⟨S50000, .f32⟩
  | .hbm, ⟨57, _⟩ => ⟨S50000x1, .f32⟩
  | .hbm, ⟨58, _⟩ => ⟨S1x128, .f32⟩
  | .hbm, ⟨59, _⟩ => ⟨S1x128, .f32⟩
  | .hbm, ⟨60, _⟩ => ⟨S1x128, .f32⟩
  | .hbm, ⟨61, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S5000x128, .f32⟩
  | .local _ .vmem, ⟨12, _⟩ => ⟨S5000x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg7_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem7_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  shapeCasts_S50000_S50000x1 : S50000.ShapeCasts S50000x1
  shapeCasts_S128_S1x128 : S128.ShapeCasts S1x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  shapeCasts_S5000x128_S5000x128 : S5000x128.ShapeCasts S5000x128
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S5000 : S5000x128.Reduces [1] S5000
  shapeCasts_S5000_S5000x1 : S5000.ShapeCasts S5000x1
  dot_S5000x128_S128x128_S5000x128_1_0_0_1_n_n_wf : DotDims.WF S5000x128 S128x128 S5000x128 [1] [0] [0] [1] [] []
  scatter_S50000_S600000x1_S600000_n_0_0_1_wf : ScatterDims.WF S50000 S600000x1 S600000 [] [0] [0] 1
  gather_S50000_S600000x1_S600000_n_0_n_n_0_1_1_wf : GatherDims.WF S50000 S600000x1 S600000 [] [0] [] [0] [] 1 ![1]
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S50000x128.size a
  hwx1_7 : ∀ i : grid1.Coords, EltTy.bits .f32 = 32 ∨ (Rect.block (s := S50000x128) S5000x128.size (cc1_transform_7 i) (hinb1_7 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000_S600000x1_S600000_n_0_n_n_0_1_1 : GatherDims S50000 S600000x1 S600000 where
  offsetDims := []
  collapsedSliceDims := [0]
  operandBatchingDims := []
  startIndicesBatchingDims := []
  startIndexMap := [0]
  indexVectorDim := 1
  sliceSizes := ![1]
  wf := gather_S50000_S600000x1_S600000_n_0_n_n_0_1_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v39) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg0) S5000x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v42) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v44) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v45) S5000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S1x600000 : Shape := ⟨2, ![1, 600000]⟩
abbrev S600000 : Shape := ⟨1, ![600000]⟩
abbrev S_ : Shape := ⟨0, ![]⟩
abbrev S50000 : Shape := ⟨1, ![50000]⟩
abbrev S600000x1 : Shape := ⟨2, ![600000, 1]⟩
abbrev S600000x128 : Shape := ⟨2, ![600000, 128]⟩
abbrev S50000x1 : Shape := ⟨2, ![50000, 1]⟩
abbrev S1x128 : Shape := ⟨2, ![1, 128]⟩

abbrev nBuf : Space → Nat
  | .hbm => 101
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S1x600000, .i32⟩
  | .hbm, ⟨7, _⟩ => ⟨S600000, .i32⟩
  | .hbm, ⟨8, _⟩ => ⟨S1x600000, .i32⟩
  | .hbm, ⟨9, _⟩ => ⟨S600000, .i32⟩
  | .hbm, ⟨10, _⟩ => ⟨S50000x128, .f32⟩
  | .hbm, ⟨11, _⟩ => ⟨S_, .f32⟩
  | .hbm, ⟨12, _⟩ => ⟨S600000, .f32⟩
  | .hbm, ⟨13, _⟩ => ⟨S_, .f32⟩
  | .hbm, ⟨14, _⟩ => ⟨S50000, .f32⟩
  | .hbm, ⟨15, _⟩ => ⟨S600000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .f32⟩
  | .hbm, ⟨20, _⟩ => ⟨S50000, .f32⟩
  | .hbm, ⟨21, _⟩ => ⟨S_, .i32⟩
  | .hbm, ⟨22, _⟩ => ⟨S600000, .i32⟩
  | .hbm, ⟨23, _⟩ => ⟨S600000, .i1⟩
  | .hbm, ⟨24, _⟩ => ⟨S_, .i32⟩
  | .hbm, ⟨25, _⟩ => ⟨S600000, .i32⟩
  | .hbm, ⟨26, _⟩ => ⟨S600000, .i32⟩
  | .hbm, ⟨27, _⟩ => ⟨S600000, .i32⟩
  | .hbm, ⟨28, _⟩ => ⟨S600000x1, .i32⟩
  | .hbm, ⟨29, _⟩ => ⟨S600000, .f32⟩
  | .hbm, ⟨30, _⟩ => ⟨S_, .i32⟩
  | .hbm, ⟨31, _⟩ => ⟨S600000, .i32⟩
  | .hbm, ⟨32, _⟩ => ⟨S600000, .i1⟩
  | .hbm, ⟨33, _⟩ => ⟨S_, .i32⟩
  | .hbm, ⟨34, _⟩ => ⟨S600000, .i32⟩
  | .hbm, ⟨35, _⟩ => ⟨S600000, .i32⟩
  | .hbm, ⟨36, _⟩ => ⟨S600000, .i32⟩
  | .hbm, ⟨37, _⟩ => ⟨S600000x1, .i32⟩
  | .hbm, ⟨38, _⟩ => ⟨S600000, .f32⟩
  | .hbm, ⟨39, _⟩ => ⟨S600000, .f32⟩
  | .hbm, ⟨40, _⟩ => ⟨S_, .i32⟩
  | .hbm, ⟨41, _⟩ => ⟨S600000, .i32⟩
  | .hbm, ⟨42, _⟩ => ⟨S600000, .i1⟩
  | .hbm, ⟨43, _⟩ => ⟨S_, .i32⟩
  | .hbm, ⟨44, _⟩ => ⟨S600000, .i32⟩
  | .hbm, ⟨45, _⟩ => ⟨S600000, .i32⟩
  | .hbm, ⟨46, _⟩ => ⟨S600000, .i32⟩
  | .hbm, ⟨47, _⟩ => ⟨S600000x1, .i32⟩
  | .hbm, ⟨48, _⟩ => ⟨S600000x128, .f32⟩
  | .hbm, ⟨49, _⟩ => ⟨S600000x1, .f32⟩
  | .hbm, ⟨50, _⟩ => ⟨S600000x128, .f32⟩
  | .hbm, ⟨51, _⟩ => ⟨S600000x128, .f32⟩
  | .hbm, ⟨52, _⟩ => ⟨S_, .f32⟩
  | .hbm, ⟨53, _⟩ => ⟨S50000x128, .f32⟩
  | .hbm, ⟨54, _⟩ => ⟨S600000x1, .i32⟩
  | .hbm, ⟨55, _⟩ => ⟨S50000x128, .f32⟩
  | .hbm, ⟨56, _⟩ => ⟨S50000, .f32⟩
  | .hbm, ⟨57, _⟩ => ⟨S50000x1, .f32⟩
  | .hbm, ⟨58, _⟩ => ⟨S50000x128, .f32⟩
  | .hbm, ⟨59, _⟩ => ⟨S50000x128, .f32⟩
  | .hbm, ⟨60, _⟩ => ⟨S50000x128, .f32⟩
  | .hbm, ⟨61, _⟩ => ⟨S1x128, .f32⟩
  | .hbm, ⟨62, _⟩ => ⟨S50000x128, .f32⟩
  | .hbm, ⟨63, _⟩ => ⟨S50000x128, .f32⟩
  | .hbm, ⟨64, _⟩ => ⟨S_, .f32⟩
  | .hbm, ⟨65, _⟩ => ⟨S50000, .f32⟩
  | .hbm, ⟨66, _⟩ => ⟨S50000x1, .f32⟩
  | .hbm, ⟨67, _⟩ => ⟨S_, .f32⟩
  | .hbm, ⟨68, _⟩ => ⟨S50000x1, .f32⟩
  | .hbm, ⟨69, _⟩ => ⟨S50000x1, .f32⟩
  | .hbm, ⟨70, _⟩ => ⟨S50000x128, .f32⟩
  | .hbm, ⟨71, _⟩ => ⟨S50000x128, .f32⟩
  | .hbm, ⟨72, _⟩ => ⟨S50000x128, .f32⟩
  | .hbm, ⟨73, _⟩ => ⟨S_, .f32⟩
  | .hbm, ⟨74, _⟩ => ⟨S50000, .f32⟩
  | .hbm, ⟨75, _⟩ => ⟨S50000x1, .f32⟩
  | .hbm, ⟨76, _⟩ => ⟨S_, .f32⟩
  | .hbm, ⟨77, _⟩ => ⟨S50000x1, .f32⟩
  | .hbm, ⟨78, _⟩ => ⟨S50000x1, .f32⟩
  | .hbm, ⟨79, _⟩ => ⟨S50000x128, .f32⟩
  | .hbm, ⟨80, _⟩ => ⟨S50000x128, .f32⟩
  | .hbm, ⟨81, _⟩ => ⟨S_, .f32⟩
  | .hbm, ⟨82, _⟩ => ⟨S50000x1, .f32⟩
  | .hbm, ⟨83, _⟩ => ⟨S50000x1, .f32⟩
  | .hbm, ⟨84, _⟩ => ⟨S50000x1, .f32⟩
  | .hbm, ⟨85, _⟩ => ⟨S50000x128, .f32⟩
  | .hbm, ⟨86, _⟩ => ⟨S50000x128, .f32⟩
  | .hbm, ⟨87, _⟩ => ⟨S1x128, .f32⟩
  | .hbm, ⟨88, _⟩ => ⟨S50000x128, .f32⟩
  | .hbm, ⟨89, _⟩ => ⟨S50000x128, .f32⟩
  | .hbm, ⟨90, _⟩ => ⟨S1x128, .f32⟩
  | .hbm, ⟨91, _⟩ => ⟨S50000x128, .f32⟩
  | .hbm, ⟨92, _⟩ => ⟨S50000x128, .f32⟩
  | .hbm, ⟨93, _⟩ => ⟨S_, .f32⟩
  | .hbm, ⟨94, _⟩ => ⟨S50000x128, .f32⟩
  | .hbm, ⟨95, _⟩ => ⟨S50000x128, .i1⟩
  | .hbm, ⟨96, _⟩ => ⟨S_, .f32⟩
  | .hbm, ⟨97, _⟩ => ⟨S50000x128, .f32⟩
  | .hbm, ⟨98, _⟩ => ⟨S50000x128, .f32⟩
  | .hbm, ⟨99, _⟩ => ⟨S50000x128, .f32⟩
  | .hbm, ⟨100, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_8 : Ref sig .tc := ⟨.hbm, 64, rfl⟩
abbrev main_v48 : Ref sig .tc := ⟨.hbm, 65, rfl⟩
abbrev main_v49 : Ref sig .tc := ⟨.hbm, 66, rfl⟩
abbrev main_cst_9 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_10 : Ref sig .tc := ⟨.hbm, 73, rfl⟩
abbrev main_v55 : Ref sig .tc := ⟨.hbm, 74, rfl⟩
abbrev main_v56 : Ref sig .tc := ⟨.hbm, 75, rfl⟩
abbrev main_cst_11 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_12 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_cst_13 : Ref sig .tc := ⟨.hbm, 93, rfl⟩
abbrev main_v72 : Ref sig .tc := ⟨.hbm, 94, rfl⟩
abbrev main_v73 : Ref sig .tc := ⟨.hbm, 95, rfl⟩
abbrev main_cst_14 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S50000_d1 : S50000x128.ReducesTo [1] S50000
  h_S_ : 0 < S_.numel
  bcast_S_S50000x1 : S_.BroadcastsInDim S50000x1 (![] : Fin 0 → Fin S50000x1.rank)
  dot_S50000x128_S128x128_S50000x128_1_0_0_1_n_n_wf : DotDims.WF S50000x128 S128x128 S50000x128 [1] [0] [0] [1] [] []
  scatter_S50000_S600000x1_S600000_n_0_0_1_wf : ScatterDims.WF S50000 S600000x1 S600000 [] [0] [0] 1
  gather_S50000_S600000x1_S600000_n_0_n_n_0_1_1_wf : GatherDims.WF S50000 S600000x1 S600000 [] [0] [] [0] [] 1 ![1]
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000_S600000x1_S600000_n_0_n_n_0_1_1 : GatherDims S50000 S600000x1 S600000 where
  offsetDims := []
  collapsedSliceDims := [0]
  operandBatchingDims := []
  startIndicesBatchingDims := []
  startIndexMap := [0]
  indexVectorDim := 1
  sliceSizes := ![1]
  wf := gather_S50000_S600000x1_S600000_n_0_n_n_0_1_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf

class Facts : Prop extends Facts₀ where

variable [Facts]
-- ==== Proof.KernelRun.lean ====
/-
  The idealized kernel's run with its result named.

  The program is two kernel launches with a stretch of host operations between them. Every weakly fair execution ends
  with each unscoped buffer at the contents the last launch leaves; read at the result's buffer this is what the second
  launch's write-backs, folded over its ten grid points, leave in the result array, and read at an argument's buffer it
  is the argument as launched.
-/
import proofs.«145077_j41188736368774_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result's buffer at what the last launch leaves
    there and the six argument arrays as launched. -/
theorem run_result : θ_run defs (onTc (τ := τ) (main (F := F))) ⟨m, fun _ => 0, ρ⟩ (fun r => ∀ c : Dev nD,
      r.2.mem ((c.tc : Thread nD τ).loc main_v45) = W3 m ρ c (Proc.devRef .tc main_v45)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v45 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c)⟩)

/-- The result array after the run is the second launch's output array after its last grid point. -/
theorem result_eq (c : Dev nD) :
    W3 m ρ c (Proc.devRef .tc main_v45) = (dat1 (V2 m ρ) c).arrAt 7 cfg1.N := W3_arr m ρ c 7

end Cert.KernelIdeal.Run

end
-- ==== Proof.LibPlainMatmul.lean ====
/-
  A kernel's plain matrix product read at an entry, over the extended reals.

  An [m, k] by [k, n] product accumulated into the zero block has, at entry (a, b), the sum over the contracted
  coordinate c of A (a, c) · B (c, b): the exact contraction has no accumulator left in it (the extended reals have one
  zero) and is the same sum the host's product of the same operands is.
-/
import Idealize.ShloMosaic.Lib.StackMember
import Idealize.ShloMosaic.PureOps.Ideal.Laws

noncomputable section

namespace Cert.Lib

open Idealize.ShloMosaic Idealize.ShloMosaic.ValueIdx

/-- Entry (a, b) of an [m, k] × [k, n] matrix product into a zero accumulator is `∑ c, A (a, c) · B (c, b)`. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) :=
  (Ideal.matmul_constant_zero_apply (DotDims.plain m k n) prec A B (ix2 a b)).trans
    ((Ideal.dotGeneral_apply (DotDims.plain m k n) prec default A B (ix2 a b)).symm.trans
      (StackMember.dotGeneral_plain_apply prec A B a b))

end Cert.Lib

end
-- ==== Proof.ProductValue.lean ====
/-
  The first launch computes the projected features x · W, block of 5000 rows by block.

  Grid point t loads rows 5000 t … 5000 t + 4999 of x and all of W, multiplies them on the matrix unit into a zero
  accumulator and writes the product to the same rows of the result. Entry (a, b) of that block product is the sum over
  the contracted coordinate k of x (5000 t + a, k) · W (k, b) — the entry (5000 t + a, b) of the whole product, since a
  row of a product depends on that row of the left factor only. (The change of float format of the operands is the
  identity on the extended reals.) The ten blocks tile the 50000 rows, so after the launch the result array is the whole
  product.
-/
import proofs.«145077_j41188736368774_1_alg».proof.Proof.Gen.KernelIdeal.Frame
import proofs.«145077_j41188736368774_1_alg».proof.Proof.LibPlainMatmul
import Idealize.ShloMosaic.Lib.Pipeline.Value
import Idealize.ShloMosaic.Lib.ValueIdx

set_option maxRecDepth 16384

noncomputable section

namespace Cert.KernelIdeal.Product

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero_offsets : (![0, 0] : Fin 2 → Nat) = fun _ => 0 := funext fun a => by fin_cases a <;> rfl

/-- The whole product of a [50000, 128] array with a [128, 128] array, as the host computes it. -/
def whole (X : S50000x128.Idx → EReal) (W : S128x128.Idx → EReal) : S50000x128.Idx → EReal :=
  Host.dotGeneral (F := Ideal) (φ₁ := .f32) (φ₂ := .f32) (DotDims.plain 50000 128 128) none X W

/-- Entry (r, b) of the whole product is the sum over k of X (r, k) · W (k, b). -/
theorem whole_entry (X : S50000x128.Idx → EReal) (W : S128x128.Idx → EReal) (r : Fin 50000) (b : Fin 128) :
    whole X W (ix2 r b) = ∑ k : Fin 128, X (ix2 r k) * W (ix2 k b) :=
  StackMember.dotGeneral_plain_apply (φ₁ := .f32) (φ₂ := .f32) none X W r b

/-- Entry (a, b) of the block product the body stores is the sum over k of the loaded rows' (a, k) times W's (k, b). -/
theorem block_entry (x0 : Vec Ideal S5000x128 .f32) (x1 : Vec Ideal S128x128 .f32) (a : Fin 5000) (b : Fin 128) :
    k0_pay1 (F := Ideal) x0 x1 (ix2 a b) = ∑ k : Fin 128, x0 (ix2 a k) * x1 (ix2 k b) := by
  unfold k0_pay1
  exact Cert.Lib.matmul_plain_zero_apply (m := 5000) (k := 128) (n := 128) none _ _ a b

/-- The printed index maps over the ten grid points: the left factor's and the result's block move down with the point,
    W's block stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the whole product of the arrays as the launch finds them. -/
theorem flushed_eq (c : Dev nD) (t : Fin cfg0.N) :
    (dat0 V c).flushed 2 t = ((cfg0.win 2).blk t).view.read (Elt Ideal) (whole (V c main_arg0) (V c main_arg2)) := by
  show (cfg0.win 2).cut (grid0.coords t) ((dat0 V c).after 2 t) = _
  rw [after0_2]
  unfold out0_2
  rw [View.canon_unit_zero zero_offsets]
  simp only [View.ld_unit_zero (S := S5000x128) zero_offsets, View.ld_unit_zero (S := S128x128) zero_offsets]
  obtain ⟨e0, e1, e2, e3, e4, e5⟩ := idx_facts t
  funext j
  obtain ⟨a, b, rfl⟩ : ∃ (a : Fin 5000) (b : Fin 128), j = ix2 a b := ⟨j 0, j 1, eq_ix2 j⟩
  have ht : t.val < 10 := t.isLt
  have hrow : 5000 * t.val + a.val < 50000 := by have := a.isLt; omega
  have hout : ((cfg0.win 2).blk t).view.emb (ix2 a b) = ix2 (⟨5000 * t.val + a.val, hrow⟩ : Fin 50000) b := by
    funext d; apply Fin.ext
    match d with
    | ⟨0, _⟩ => show win0_2.index t (0 : Fin 2) * 5000 + 1 * a.val = 5000 * t.val + a.val; omega
    | ⟨1, _⟩ => show win0_2.index t (1 : Fin 2) * 128 + 1 * b.val = b.val; omega
  refine (block_entry (iblk0 V c 0 t) (iblk0 V c 1 t) a b).trans ?_
  show _ = whole (V c main_arg0) (V c main_arg2) (((cfg0.win 2).blk t).view.emb (ix2 a b))
  rw [hout, whole_entry]
  refine Finset.sum_congr rfl fun k _ => ?_
  have hl : ((cfg0.win 0).blk t).view.emb (ix2 a k) = ix2 (⟨5000 * t.val + a.val, hrow⟩ : Fin 50000) k := by
    funext d; apply Fin.ext
    match d with
    | ⟨0, _⟩ => show win0_0.index t (0 : Fin 2) * 5000 + 1 * a.val = 5000 * t.val + a.val; omega
    | ⟨1, _⟩ => show win0_0.index t (1 : Fin 2) * 128 + 1 * k.val = k.val; omega
  have hr : ((cfg0.win 1).blk t).view.emb (ix2 k b) = ix2 k b := by
    funext d; apply Fin.ext
    match d with
    | ⟨0, _⟩ => show win0_1.index t (0 : Fin 2) * 128 + 1 * k.val = k.val; omega
    | ⟨1, _⟩ => show win0_1.index t (1 : Fin 2) * 128 + 1 * b.val = b.val; omega
  have step : ∀ (X : S50000x128.Idx → EReal) (Wt : S128x128.Idx → EReal),
      X (((cfg0.win 0).blk t).view.emb (ix2 a k)) * Wt (((cfg0.win 1).blk t).view.emb (ix2 k b))
        = X (ix2 (⟨5000 * t.val + a.val, hrow⟩ : Fin 50000) k) * Wt (ix2 k b) := fun X Wt => by rw [hl, hr]
  exact step (V c main_arg0) (V c main_arg2)

/-- An index of the result array is in point t's block iff each coordinate is in the block's range on its axis. -/
theorem mem_blk (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v0).slice (win0_2.rect t)).set ↔ _
  rw [View.set_slice_whole, Rect.mem_set_unit]
  exact Iff.rfl

/-- Every row is in some point's block: row r in the block of point r / 5000. -/
theorem cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  let t : Fin cfg0.N := ⟨(i 0).val / 5000, by show (i 0).val / 5000 < 10; omega⟩
  obtain ⟨e0, e1, e2, e3, e4, e5⟩ := idx_facts t
  have e4' : win0_2.index t (0 : Fin 2) = (i 0).val / 5000 := e4
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- After the launch the result array is the whole product of the arrays as the launch finds them. -/
theorem final (c : Dev nD) : (dat0 V c).arrAt 2 cfg0.N = whole (V c main_arg0) (V c main_arg2) :=
  (dat0 V c).arrAt_eq_of_cover 2 (whole (V c main_arg0) (V c main_arg2)) (fun t _ => flushed_eq V c t) cover

end Cert.KernelIdeal.Product

end
-- ==== Proof.HostMiddle.lean ====
/-
  Between the two launches the host computes, from the first launch's result xw and the edge list e:
    the degree of each node (a scatter-add of ones over the edges' targets, plus one for the self loop), its inverse
    root, the edge weights (the product of the two ends' inverse roots), the messages (the source's row of xw times the
    edge's weight, scatter-added at the target), the squared inverse-root degree as a column, and the bias, gain and
    shift as rows.
  These are the reference's own operations applied to xw, so each array the second launch reads is the reference's stage
  of the same name with xw in the product's place.
-/
import proofs.«145077_j41188736368774_1_alg».proof.Proof.Gen.KernelIdeal.Launch
import proofs.«145077_j41188736368774_1_alg».proof.Proof.RefRead
import Idealize.ShloMosaic.Lib.StableHlo.Run
import Idealize.ShloMosaic.Lib.Pipeline.Value

set_option maxRecDepth 16384

noncomputable section

namespace Cert.KernelIdeal.Middle

open Cert.KernelIdeal Cert.KernelIdeal.Gen
open Idealize.ShloMosaic Idealize.ShloMosaic.TcCoe Idealize.SL.Sem Idealize.ShloMosaic.StableHlo

/-- The scattered messages as a function of the projected features and the edge list: the reference's scatter-add of
    its gathered, weighted rows, with the projected features a parameter. -/
def messages (xw : (⟨Cert.ReferenceIdeal.S50000x128, .f32⟩ : BufTy).Contents (Elt Ideal))
    (e : (⟨Cert.ReferenceIdeal.S2x600000, .i32⟩ : BufTy).Contents (Elt Ideal)) :
    (⟨Cert.ReferenceIdeal.S50000x128, .f32⟩ : BufTy).Contents (Elt Ideal) :=
  Host.scatterAdd (F := Ideal) (φ := .f32) Cert.ReferenceIdeal.scatter_S50000x128_S600000x1_S600000x128_1_0_0_1
    (Cert.ReferenceIdeal.Read.val_main_v37 (F := Ideal)) (Cert.ReferenceIdeal.Read.val_main_v38 (F := Ideal) e)
    (mulf (F := Ideal) (φ := .f32) (Host.gather Cert.ReferenceIdeal.gather_S50000x128_S600000x1_S600000x128_1_0_n_n_0_1_1128 xw
        (Cert.ReferenceIdeal.Read.val_main_v32 (F := Ideal) e))
      (Cert.ReferenceIdeal.Read.val_main_v35 (F := Ideal) e))

/-- The reference's messages are that function of its own product. -/
theorem ref_messages (x0 : (⟨Cert.ReferenceIdeal.S50000x128, .f32⟩ : BufTy).Contents (Elt Ideal))
    (x1 : (⟨Cert.ReferenceIdeal.S2x600000, .i32⟩ : BufTy).Contents (Elt Ideal))
    (x2 : (⟨Cert.ReferenceIdeal.S128x128, .f32⟩ : BufTy).Contents (Elt Ideal)) :
    Cert.ReferenceIdeal.Read.val_main_v39 (F := Ideal) x0 x1 x2
      = messages (Cert.ReferenceIdeal.Read.val_main_v4 (F := Ideal) x0 x2) x1 := rfl

variable (W : Valuation τ sig (Elt Ideal))

/-- After the host stretch the messages' buffer holds the messages of the first launch's result and the edge list. -/
theorem after_messages :
    StableHlo.after (hostOps1 (F := Ideal)) W (Proc.devRef .tc main_v39)
      = messages (W (Proc.devRef .tc main_v0)) (W (Proc.devRef .tc main_arg1)) := by
  after_results_simp <;> rfl

/-- The squared inverse-root degrees, reshaped to a column. -/
theorem after_selfweight :
    StableHlo.after (hostOps1 (F := Ideal)) W (Proc.devRef .tc main_v41)
      = shapeCast S50000x1 (Cert.ReferenceIdeal.Read.val_main_v40 (F := Ideal) (W (Proc.devRef .tc main_arg1))) shapeCasts_S50000_S50000x1 := by
  after_results_simp <;> rfl

/-- The bias, the gain and the shift, each reshaped to a row. -/
theorem after_bias :
    StableHlo.after (hostOps1 (F := Ideal)) W (Proc.devRef .tc main_v42)
      = shapeCast S1x128 (W (Proc.devRef .tc main_arg3)) shapeCasts_S128_S1x128 := by
  after_results_simp <;> rfl
theorem after_gain :
    StableHlo.after (hostOps1 (F := Ideal)) W (Proc.devRef .tc main_v43)
      = shapeCast S1x128 (W (Proc.devRef .tc main_arg4)) shapeCasts_S128_S1x128 := by
  after_results_simp <;> rfl
theorem after_shift :
    StableHlo.after (hostOps1 (F := Ideal)) W (Proc.devRef .tc main_v44)
      = shapeCast S1x128 (W (Proc.devRef .tc main_arg5)) shapeCasts_S128_S1x128 := by
  after_results_simp <;> rfl

/-- The host stretch leaves the first launch's result and the input rows where they are. -/
theorem after_product :
    StableHlo.after (hostOps1 (F := Ideal)) W (Proc.devRef .tc main_v0) = W (Proc.devRef .tc main_v0) := by
  after_results_simp <;> rfl
theorem after_input :
    StableHlo.after (hostOps1 (F := Ideal)) W (Proc.devRef .tc main_arg0) = W (Proc.devRef .tc main_arg0) := by
  after_results_simp <;> rfl

end Cert.KernelIdeal.Middle

end
-- ==== Proof.RowNorm.lean ====
/-
  One node's row of the layer: graph convolution output, normalised over its 128 channels, passed through a leaky
  rectifier, added to the node's input row.

  For a node, let a be its row of summed neighbour messages, w its row of the projected features, d the square of its
  inverse-root degree (the weight of its own self loop), and β, γ, δ the bias, gain and shift of the 128 channels.
  The row before normalisation is  u q = a q + w q · d + β q.  Its mean over the channels is μ = (Σ u) / 128, the
  centred row is u q − μ, the variance is σ² = (Σ (u − μ)²) / 128, the normalised row is
  (u q − μ) · (σ² + ε)^(−1/2) · γ q + δ q, a value y passes the rectifier as y when y ≥ 0 and as s · y otherwise,
  and the node's own input row x is added at the end.  Everything is on the extended reals; 128, ε and s stay the
  binary words both programs carry.
-/
import Idealize.ShloMosaic.PureOps.Ideal
import Idealize.ShloMosaic.PureOps.Ideal.Laws

noncomputable section

namespace Cert.Row

open Idealize.ShloMosaic

/-- The row before normalisation: messages, plus the self loop's share of the projected features, plus the bias. -/
def pre (a w : Fin 128 → EReal) (d : EReal) (β : Fin 128 → EReal) (q : Fin 128) : EReal := a q + w q * d + β q

/-- The mean of a row over its 128 channels. -/
def mean (u : Fin 128 → EReal) : EReal := Ideal.div (∑ q : Fin 128, u q) (Ideal.ofBits .f32 0x43000000#32)

/-- A row with its mean taken off. -/
def centred (u : Fin 128 → EReal) (q : Fin 128) : EReal := u q - mean u

/-- The inverse root of the variance plus ε. -/
def invDev (u : Fin 128 → EReal) : EReal :=
  Ideal.rsqrt (mean (fun q => centred u q * centred u q) + Ideal.ofBits .f32 0x3727C5AC#32)

/-- The normalised row under the channels' gain γ and shift δ. -/
def normed (u γ δ : Fin 128 → EReal) (q : Fin 128) : EReal := centred u q * invDev u * γ q + δ q

/-- The leaky rectifier: y where y ≥ 0, the slope times y elsewhere. -/
def leaky (y : EReal) : EReal :=
  Scalar.select (FloatOps.cmpf (F := Ideal) (φ := .f32) .oge y (Ideal.ofBits .f32 0x00000000#32)) y
    (Ideal.ofBits .f32 0x3C23D70A#32 * y)

/-- A node's output row: the rectified normalised row plus its input row. -/
def out (a w : Fin 128 → EReal) (d : EReal) (β γ δ x : Fin 128 → EReal) (q : Fin 128) : EReal :=
  leaky (normed (pre a w d β) γ δ q) + x q

end Cert.Row

end
-- ==== Proof.PostRow.lean ====
/-
  The second kernel body's stored value, read at an entry of its 5000-row block, is the row function of its loaded blocks.

  The body works on whole [5000, 128] blocks: it forms the block before normalisation (messages, plus x·W times the
  broadcast column of squared inverse-root degrees, plus the broadcast bias row), sums each row over its 128 lanes,
  reshapes the sums to a column, divides by 128 and broadcasts the column back to take the mean off, does the same with
  the squares for the variance, multiplies by the inverse root of variance plus ε, by the gain row, adds the shift row,
  passes the rectifier and adds the block of input rows.  Every one of these operations acts on a row alone: a pointwise
  operation reads its operands at the same entry, a column broadcast reads the column at the entry's row, a row
  broadcast reads the row at the entry's channel, and the lane sum at row p is the sum of the block's entries (p, k)
  over the channels k.  So at entry (p, q) the value is the row function of row p of each block, at channel q.
-/
import proofs.«145077_j41188736368774_1_alg».proof.Proof.Gen.KernelIdeal.Skeleton
import proofs.«145077_j41188736368774_1_alg».proof.Proof.RowNorm
import Idealize.ShloMosaic.Lib.ValueIdx
import Idealize.ShloMosaic.Lib.Pipeline.Value
import Idealize.ShloMosaic.Lib.ValueLayout
import Idealize.ShloMosaic.PureOps.Ideal.Laws

noncomputable section

namespace Cert.PostRow

open Cert.KernelIdeal Cert.KernelIdeal.Gen Idealize.ShloMosaic Idealize.ShloMosaic.ValueIdx

/-! ## Layout operations with a unit column, read at an index -/

/-- An `[a]` array cast to the column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over `b` lanes reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index over row `p` with lane `k` put back on the summed axis is `(p, k)`. -/
theorem lift_row (p : Fin 5000) (k : Fin 128) :
    reduces_S5000x128_S5000.lift (ix1 p) k = ix2 p k := by
  funext c
  refine Fin.ext ?_
  match c with
  | ⟨0, _⟩ => rfl
  | ⟨1, _⟩ => rfl

/-- The lane sum of a block, read at row `p`, is the sum of that row's 128 entries. -/
theorem laneSum_apply (v : FVec Ideal S5000x128 .f32) (p : Fin 5000) :
    multiReduction (F := Ideal) .add [1] S5000 v 0x00000000#32 reduces_S5000x128_S5000 (.inl rfl) rfl (ix1 p)
      = ∑ k : Fin 128, v (ix2 p k) := by
  refine (Ideal.multiReduction_add_single v 0x00000000#32 reduces_S5000x128_S5000 (.inl rfl) rfl (ix1 p)).trans ?_
  show ∑ k : Fin 128, v (reduces_S5000x128_S5000.lift (ix1 p) k) = _
  refine Finset.sum_congr rfl fun k _ => ?_
  rw [lift_row]

/-! ## The body's sub-terms, named

The body's value is one term; its shared sub-terms are named here so that each is read at an index once. -/

/-- The block before normalisation: the messages, plus x·W times the broadcast column of squared inverse-root
    degrees, plus the broadcast bias row. -/
def pre12 (d2 : FVec Ideal S5000x1 .f32) (agg xw : FVec Ideal S5000x128 .f32) (b : FVec Ideal S1x128 .f32) :
    FVec Ideal S5000x128 .f32 :=
  addf (addf (shapeCast S5000x128 agg shapeCasts_S5000x128_S5000x128)
      (mulf (shapeCast S5000x128 xw shapeCasts_S5000x128_S5000x128)
        (broadcastTo S5000x128 (shapeCast S5000x1 d2 shapeCasts_S5000x1_S5000x1) broadcasts_S5000x1_S5000x128)))
    (broadcastTo S5000x128 (shapeCast S1x128 b shapeCasts_S1x128_S1x128) broadcasts_S1x128_S5000x128)

/-- The column of row means of a block: its lane sum, as a column, over the broadcast word of 128. -/
def mean16 (v : FVec Ideal S5000x128 .f32) : FVec Ideal S5000x1 .f32 :=
  divf (shapeCast S5000x1
      (multiReduction (F := Ideal) .add [1] S5000 v 0x00000000#32 reduces_S5000x128_S5000 (.inl rfl) rfl)
      shapeCasts_S5000_S5000x1)
    (broadcast S5000x1 (Scalar.ofBits (F := Ideal) .f32 0x43000000#32))

/-- A block with each row's mean taken off. -/
def cen18 (v : FVec Ideal S5000x128 .f32) : FVec Ideal S5000x128 .f32 :=
  subf v (broadcastTo S5000x128 (mean16 v) broadcasts_S5000x1_S5000x128)

/-- The column of inverse roots of each row's variance plus ε. -/
def inv26 (v : FVec Ideal S5000x128 .f32) : FVec Ideal S5000x1 .f32 :=
  rsqrt (addf (mean16 (mulf (cen18 v) (cen18 v))) (broadcast S5000x1 (Scalar.ofBits (F := Ideal) .f32 0x3727C5AC#32)))

/-- The normalised block under the broadcast gain and shift rows. -/
def norm36 (v : FVec Ideal S5000x128 .f32) (g be : FVec Ideal S1x128 .f32) : FVec Ideal S5000x128 .f32 :=
  addf (mulf (mulf (cen18 v) (broadcastTo S5000x128 (inv26 v) broadcasts_S5000x1_S5000x128))
      (broadcastTo S5000x128 (shapeCast S1x128 g shapeCasts_S1x128_S1x128) broadcasts_S1x128_S5000x128))
    (broadcastTo S5000x128 (shapeCast S1x128 be shapeCasts_S1x128_S1x128) broadcasts_S1x128_S5000x128)

/-- The body's normalised value is these terms composed. -/
theorem pay2_eq (d2 : Vec Ideal S5000x1 .f32) (agg xw : Vec Ideal S5000x128 .f32) (b g be : Vec Ideal S1x128 .f32) :
    k1_pay2 (F := Ideal) d2 agg xw b g be = norm36 (pre12 d2 agg xw b) g be := rfl

/-! ## Each sub-term at an entry of the block -/

/-- The block before normalisation, at row `p` and channel `k`, is the row function's `pre`. -/
theorem pre12_apply (d2 : FVec Ideal S5000x1 .f32) (agg xw : FVec Ideal S5000x128 .f32) (b : FVec Ideal S1x128 .f32)
    (p : Fin 5000) (k : Fin 128) :
    pre12 d2 agg xw b (ix2 p k)
      = Cert.Row.pre (fun k => agg (ix2 p k)) (fun k => xw (ix2 p k)) (d2 (ix2 p (0 : Fin 1)))
          (fun k => b (ix2 (0 : Fin 1) k)) k := by
  unfold pre12 Cert.Row.pre
  rw [shapeCast_self, shapeCast_self, shapeCast_self, shapeCast_self]
  show agg (ix2 p k) + xw (ix2 p k) * broadcastTo S5000x128 d2 broadcasts_S5000x1_S5000x128 (ix2 p k)
      + broadcastTo S5000x128 b broadcasts_S1x128_S5000x128 (ix2 p k) = _
  rw [broadcastTo_a1_ab_apply, broadcastTo_1b_ab_apply]

/-- The column of row means, at row `p`, is the mean of that row. -/
theorem mean16_apply (v : FVec Ideal S5000x128 .f32) (p : Fin 5000) (u : Fin 1) :
    mean16 v (ix2 p u) = Cert.Row.mean (fun k => v (ix2 p k)) := by
  unfold mean16 Cert.Row.mean
  show Ideal.div (shapeCast S5000x1
      (multiReduction (F := Ideal) .add [1] S5000 v 0x00000000#32 reduces_S5000x128_S5000 (.inl rfl) rfl)
      shapeCasts_S5000_S5000x1 (ix2 p u)) (Ideal.ofBits .f32 0x43000000#32) = _
  rw [shapeCast_a_a1_apply, laneSum_apply]

/-- The centred block, at row `p` and channel `k`, is the centred row. -/
theorem cen18_apply (v : FVec Ideal S5000x128 .f32) (p : Fin 5000) (k : Fin 128) :
    cen18 v (ix2 p k) = Cert.Row.centred (fun k => v (ix2 p k)) k := by
  unfold cen18 Cert.Row.centred
  show v (ix2 p k) - broadcastTo S5000x128 (mean16 v) broadcasts_S5000x1_S5000x128 (ix2 p k) = _
  rw [broadcastTo_a1_ab_apply, mean16_apply]

/-- The column of inverse deviations, at row `p`, is that row's. -/
theorem inv26_apply (v : FVec Ideal S5000x128 .f32) (p : Fin 5000) (u : Fin 1) :
    inv26 v (ix2 p u) = Cert.Row.invDev (fun k => v (ix2 p k)) := by
  have e : (fun k => mulf (cen18 v) (cen18 v) (ix2 p k))
      = fun q => Cert.Row.centred (fun k => v (ix2 p k)) q * Cert.Row.centred (fun k => v (ix2 p k)) q := by
    funext q
    show cen18 v (ix2 p q) * cen18 v (ix2 p q) = _
    rw [cen18_apply]
  unfold inv26 Cert.Row.invDev
  show Ideal.rsqrt (mean16 (mulf (cen18 v) (cen18 v)) (ix2 p u) + Ideal.ofBits .f32 0x3727C5AC#32) = _
  rw [mean16_apply, e]

/-- The normalised block, at row `p` and channel `k`, is the normalised row. -/
theorem norm36_apply (v : FVec Ideal S5000x128 .f32) (g be : FVec Ideal S1x128 .f32) (p : Fin 5000) (k : Fin 128) :
    norm36 v g be (ix2 p k)
      = Cert.Row.normed (fun k => v (ix2 p k)) (fun k => g (ix2 (0 : Fin 1) k)) (fun k => be (ix2 (0 : Fin 1) k)) k := by
  unfold norm36 Cert.Row.normed
  rw [shapeCast_self, shapeCast_self]
  show cen18 v (ix2 p k) * broadcastTo S5000x128 (inv26 v) broadcasts_S5000x1_S5000x128 (ix2 p k)
        * broadcastTo S5000x128 g broadcasts_S1x128_S5000x128 (ix2 p k)
      + broadcastTo S5000x128 be broadcasts_S1x128_S5000x128 (ix2 p k) = _
  rw [broadcastTo_a1_ab_apply, broadcastTo_1b_ab_apply, broadcastTo_1b_ab_apply, cen18_apply, inv26_apply]

/-! ## The stored value -/

/-- The second body's stored value, at row `p` and channel `q` of its block, is the row function of the loaded blocks'
    row `p`. -/
theorem post_at (d2 : Vec Ideal S5000x1 .f32) (agg xw : Vec Ideal S5000x128 .f32) (b g be : Vec Ideal S1x128 .f32)
    (x : Vec Ideal S5000x128 .f32) (p : Fin 5000) (q : Fin 128) :
    k1_pay1 (F := Ideal) (k1_pay2 d2 agg xw b g be) (k1_pay3 d2 agg xw b g be) (k1_pay4 (F := Ideal)) x (ix2 p q)
      = Cert.Row.out (fun k => agg (ix2 p k)) (fun k => xw (ix2 p k)) (d2 (ix2 p (0 : Fin 1)))
          (fun k => b (ix2 (0 : Fin 1) k)) (fun k => g (ix2 (0 : Fin 1) k)) (fun k => be (ix2 (0 : Fin 1) k))
          (fun k => x (ix2 p k)) q := by
  have hrow : (fun k => pre12 d2 agg xw b (ix2 p k))
      = Cert.Row.pre (fun k => agg (ix2 p k)) (fun k => xw (ix2 p k)) (d2 (ix2 p (0 : Fin 1)))
          (fun k => b (ix2 (0 : Fin 1) k)) := funext fun k => pre12_apply d2 agg xw b p k
  unfold k1_pay1 k1_pay3 k1_pay4 Cert.Row.out Cert.Row.leaky
  rw [pay2_eq]
  show Scalar.select
      (FloatOps.cmpf (F := Ideal) (φ := .f32) .oge (norm36 (pre12 d2 agg xw b) g be (ix2 p q))
        (Ideal.ofBits .f32 0x00000000#32))
      (norm36 (pre12 d2 agg xw b) g be (ix2 p q))
      (Ideal.ofBits .f32 0x3C23D70A#32 * norm36 (pre12 d2 agg xw b) g be (ix2 p q)) + x (ix2 p q) = _
  rw [norm36_apply, hrow]

end Cert.PostRow

end
-- ==== Proof.NormValue.lean ====
/-
  The second launch normalises, rectifies and adds the input, block of 5000 rows by block.

  Grid point t loads rows 5000 t … 5000 t + 4999 of the messages, of the projected features, of the self-loop weights
  (a column) and of the input, and the whole bias, gain and shift rows; what it stores at entry (p, q) of its block is
  the row function of the loaded rows p, at channel q — a function of row 5000 t + p of each array only, because the two
  sums of the normalisation run along a row. So the block it writes back is rows 5000 t … of the array whose row r is
  the row function of the arrays' rows r; the ten blocks tile the 50000 rows, and after the launch the result array is
  that array.
-/
import proofs.«145077_j41188736368774_1_alg».proof.Proof.Gen.KernelIdeal.Frame
import proofs.«145077_j41188736368774_1_alg».proof.Proof.PostRow
import Idealize.ShloMosaic.Lib.Pipeline.Value
import Idealize.ShloMosaic.Lib.ValueIdx

set_option maxRecDepth 16384

noncomputable section

namespace Cert.KernelIdeal.Norm

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero_offsets : (![0, 0] : Fin 2 → Nat) = fun _ => 0 := funext fun a => by fin_cases a <;> rfl

/-- Entry (r, q) of the layer's output, from the arrays as the launch finds them: the row function of row r of the
    messages, of the projected features, of the self-loop weight, of the input, and of the bias, gain and shift rows. -/
def rowAt (c : Dev nD) (r : Fin 50000) (q : Fin 128) : EReal :=
  Cert.Row.out (fun k => V c main_v39 (ix2 r k)) (fun k => V c main_v0 (ix2 r k)) (V c main_v41 (ix2 r (0 : Fin 1)))
    (fun k => V c main_v42 (ix2 (0 : Fin 1) k)) (fun k => V c main_v43 (ix2 (0 : Fin 1) k)) (fun k => V c main_v44 (ix2 (0 : Fin 1) k))
    (fun k => V c main_arg0 (ix2 r k)) q

/-- The layer's output as one array. -/
def rows (c : Dev nD) : S50000x128.Idx → EReal := fun i => rowAt V c (i 0) (i 1)

/-- The printed index maps over the ten grid points: the four row-blocked windows, the column window and the result
    move down with the point; the bias, gain and shift rows stay. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- What point t writes back is block t of the layer's output of the arrays as the launch finds them. -/
theorem flushed_eq (c : Dev nD) (t : Fin cfg1.N) :
    (dat1 V c).flushed 7 t = ((cfg1.win 7).blk t).view.read (Elt Ideal) (rows V c) := by
  show (cfg1.win 7).cut (grid1.coords t) ((dat1 V c).after 7 t) = _
  rw [after1_7]
  unfold out1_7
  rw [View.canon_unit_zero zero_offsets]
  simp only [View.ld_unit_zero (S := S5000x128) zero_offsets, View.ld_unit_zero (S := S5000x1) zero_offsets,
    View.ld_unit_zero (S := S1x128) zero_offsets]
  obtain ⟨a00, a01, a10, a11, a20, a21, a30, a31, a40, a41, a50, a51, a60, a61, a70, a71⟩ := idx_facts t
  funext j
  obtain ⟨p, q, rfl⟩ : ∃ (p : Fin 5000) (q : Fin 128), j = ix2 p q := ⟨j 0, j 1, eq_ix2 j⟩
  have ht : t.val < 10 := t.isLt
  have hrow : 5000 * t.val + p.val < 50000 := by have := p.isLt; omega
  have hout : ((cfg1.win 7).blk t).view.emb (ix2 p q) = ix2 (⟨5000 * t.val + p.val, hrow⟩ : Fin 50000) q := by
    funext d; apply Fin.ext
    match d with
    | ⟨0, _⟩ => show win1_7.index t (0 : Fin 2) * 5000 + 1 * p.val = 5000 * t.val + p.val; omega
    | ⟨1, _⟩ => show win1_7.index t (1 : Fin 2) * 128 + 1 * q.val = q.val; omega
  have h0 : ∀ k : Fin 128, ((cfg1.win 0).blk t).view.emb (ix2 p k) = ix2 (⟨5000 * t.val + p.val, hrow⟩ : Fin 50000) k := fun k => by
    funext d; apply Fin.ext
    match d with
    | ⟨0, _⟩ => show win1_0.index t (0 : Fin 2) * 5000 + 1 * p.val = 5000 * t.val + p.val; omega
    | ⟨1, _⟩ => show win1_0.index t (1 : Fin 2) * 128 + 1 * k.val = k.val; omega
  have h1 : ∀ k : Fin 128, ((cfg1.win 1).blk t).view.emb (ix2 p k) = ix2 (⟨5000 * t.val + p.val, hrow⟩ : Fin 50000) k := fun k => by
    funext d; apply Fin.ext
    match d with
    | ⟨0, _⟩ => show win1_1.index t (0 : Fin 2) * 5000 + 1 * p.val = 5000 * t.val + p.val; omega
    | ⟨1, _⟩ => show win1_1.index t (1 : Fin 2) * 128 + 1 * k.val = k.val; omega
  have h2 : ((cfg1.win 2).blk t).view.emb (ix2 p (0 : Fin 1)) = ix2 (⟨5000 * t.val + p.val, hrow⟩ : Fin 50000) (0 : Fin 1) := by
    funext d; apply Fin.ext
    match d with
    | ⟨0, _⟩ => show win1_2.index t (0 : Fin 2) * 5000 + 1 * p.val = 5000 * t.val + p.val; omega
    | ⟨1, _⟩ => show win1_2.index t (1 : Fin 2) * 1 + 1 * 0 = 0; omega
  have h3 : ∀ k : Fin 128, ((cfg1.win 3).blk t).view.emb (ix2 p k) = ix2 (⟨5000 * t.val + p.val, hrow⟩ : Fin 50000) k := fun k => by
    funext d; apply Fin.ext
    match d with
    | ⟨0, _⟩ => show win1_3.index t (0 : Fin 2) * 5000 + 1 * p.val = 5000 * t.val + p.val; omega
    | ⟨1, _⟩ => show win1_3.index t (1 : Fin 2) * 128 + 1 * k.val = k.val; omega
  have h4 : ∀ k : Fin 128, ((cfg1.win 4).blk t).view.emb (ix2 (0 : Fin 1) k) = ix2 (0 : Fin 1) k := fun k => by
    funext d; apply Fin.ext
    match d with
    | ⟨0, _⟩ => show win1_4.index t (0 : Fin 2) * 1 + 1 * 0 = 0; omega
    | ⟨1, _⟩ => show win1_4.index t (1 : Fin 2) * 128 + 1 * k.val = k.val; omega
  have h5 : ∀ k : Fin 128, ((cfg1.win 5).blk t).view.emb (ix2 (0 : Fin 1) k) = ix2 (0 : Fin 1) k := fun k => by
    funext d; apply Fin.ext
    match d with
    | ⟨0, _⟩ => show win1_5.index t (0 : Fin 2) * 1 + 1 * 0 = 0; omega
    | ⟨1, _⟩ => show win1_5.index t (1 : Fin 2) * 128 + 1 * k.val = k.val; omega
  have h6 : ∀ k : Fin 128, ((cfg1.win 6).blk t).view.emb (ix2 (0 : Fin 1) k) = ix2 (0 : Fin 1) k := fun k => by
    funext d; apply Fin.ext
    match d with
    | ⟨0, _⟩ => show win1_6.index t (0 : Fin 2) * 1 + 1 * 0 = 0; omega
    | ⟨1, _⟩ => show win1_6.index t (1 : Fin 2) * 128 + 1 * k.val = k.val; omega
  refine (Cert.PostRow.post_at (iblk1 V c 2 t) (iblk1 V c 0 t) (iblk1 V c 1 t) (iblk1 V c 4 t) (iblk1 V c 5 t) (iblk1 V c 6 t)
    (iblk1 V c 3 t) p q).trans ?_
  show _ = rows V c (((cfg1.win 7).blk t).view.emb (ix2 p q))
  rw [hout]
  show Cert.Row.out (fun k => V c main_v39 (((cfg1.win 0).blk t).view.emb (ix2 p k)))
      (fun k => V c main_v0 (((cfg1.win 1).blk t).view.emb (ix2 p k)))
      (V c main_v41 (((cfg1.win 2).blk t).view.emb (ix2 p (0 : Fin 1))))
      (fun k => V c main_v42 (((cfg1.win 4).blk t).view.emb (ix2 (0 : Fin 1) k)))
      (fun k => V c main_v43 (((cfg1.win 5).blk t).view.emb (ix2 (0 : Fin 1) k)))
      (fun k => V c main_v44 (((cfg1.win 6).blk t).view.emb (ix2 (0 : Fin 1) k)))
      (fun k => V c main_arg0 (((cfg1.win 3).blk t).view.emb (ix2 p k))) q
    = rowAt V c (⟨5000 * t.val + p.val, hrow⟩ : Fin 50000) q
  simp only [h0, h1, h2, h3, h4, h5, h6]
  rfl

/-- An index of the result array is in point t's block iff each coordinate is in the block's range on its axis. -/
theorem mem_blk (t : Fin cfg1.N) (i : S50000x128.Idx) :
    i ∈ ((cfg1.win 7).blk t).view.set ↔ ∀ a : Fin 2, win1_7.index t a * S5000x128.size a ≤ (i a).val ∧ (i a).val < win1_7.index t a * S5000x128.size a + S5000x128.size a := by
  show i ∈ ((View.whole main_v45).slice (win1_7.rect t)).set ↔ _
  rw [View.set_slice_whole, Rect.mem_set_unit]
  exact Iff.rfl

/-- Every row is in some point's block: row r in the block of point r / 5000. -/
theorem cover (i : S50000x128.Idx) :
    ∃ t : Fin cfg1.N, (cfg1.win 7).flush t = true ∧ i ∈ ((cfg1.win 7).blk t).view.set := by
  have hi0 : (i 0).val < 50000 := (i 0).isLt
  have hi1 : (i 1).val < 128 := (i 1).isLt
  let t : Fin cfg1.N := ⟨(i 0).val / 5000, by show (i 0).val / 5000 < 10; omega⟩
  obtain ⟨a00, a01, a10, a11, a20, a21, a30, a31, a40, a41, a50, a51, a60, a61, a70, a71⟩ := idx_facts t
  have a70' : win1_7.index t (0 : Fin 2) = (i 0).val / 5000 := a70
  refine ⟨t, flush1_7 t, ?_⟩
  rw [mem_blk]
  intro a
  match a with
  | ⟨0, _⟩ => show win1_7.index t (0 : Fin 2) * 5000 ≤ (i 0).val ∧ (i 0).val < win1_7.index t (0 : Fin 2) * 5000 + 5000; omega
  | ⟨1, _⟩ => show win1_7.index t (1 : Fin 2) * 128 ≤ (i 1).val ∧ (i 1).val < win1_7.index t (1 : Fin 2) * 128 + 128; omega

/-- After the launch the result array is the layer's output of the arrays as the launch finds them. -/
theorem final (c : Dev nD) : (dat1 V c).arrAt 7 cfg1.N = rows V c :=
  (dat1 V c).arrAt_eq_of_cover 7 (rows V c) (fun t _ => flushed_eq V c t) cover

end Cert.KernelIdeal.Norm

end
-- ==== Proof.RefRow.lean ====
/-
  The reference read at an entry.  Its last stage at row r and channel q is the row function of RowNorm, applied to
  row r of three of its own earlier stages that are kept whole here (the scattered neighbour messages, the projected
  features x·W, the squared inverse-root degree), to the bias, gain and shift over the channels, and to row r of the
  input.

  The road is bottom-up along the stages of the program.  The layout stages (broadcasts of a column [50000,1] or of a
  channel vector [1,128] to the full array, of a scalar to an array) only move indices; their index maps are identified
  at coordinates first.  Then: the stage before normalisation is the row u; the first row sum over 128 gives its mean μ;
  the two subtractions give the centred row u − μ; the second row sum gives the mean of the squared centred row; adding ε
  and taking the inverse root gives the inverse deviation; the gain and shift give the normalised row; the comparison
  against zero, the product with the slope and the selection give the leaky rectifier; the last addition puts the input
  row back.
-/
import proofs.«145077_j41188736368774_1_alg».proof.Proof.RefRead
import proofs.«145077_j41188736368774_1_alg».proof.Proof.RowNorm

noncomputable section

namespace Cert.RefRow

open Cert.ReferenceIdeal Cert.ReferenceIdeal.Read Idealize.ShloMosaic Idealize.ShloMosaic.ValueIdx

/-! ## The index maps of the layout stages, at coordinates -/

/-- Summand k of a row sum at row r sits at entry (r, k). -/
theorem idx_v48 (r : Fin 50000) (k : Fin 128) : idx_main_v48 (ix1 r) k = ix2 r k :=
  funext fun a => Fin.ext (by match a with | ⟨0, _⟩ => rfl | ⟨1, _⟩ => rfl)

theorem idx_v55 (r : Fin 50000) (k : Fin 128) : idx_main_v55 (ix1 r) k = ix2 r k :=
  funext fun a => Fin.ext (by match a with | ⟨0, _⟩ => rfl | ⟨1, _⟩ => rfl)

/-- A column [50000,1] broadcast along the channels is read at (r, 0). -/
theorem idx_v42 (r : Fin 50000) (q : Fin 128) : idx_main_v42 (ix2 r q) = ix2 r (0 : Fin 1) :=
  funext fun a => Fin.ext (by match a with | ⟨0, _⟩ => rfl | ⟨1, _⟩ => rfl)

theorem idx_v52 (r : Fin 50000) (q : Fin 128) : idx_main_v52 (ix2 r q) = ix2 r (0 : Fin 1) :=
  funext fun a => Fin.ext (by match a with | ⟨0, _⟩ => rfl | ⟨1, _⟩ => rfl)

theorem idx_v59 (r : Fin 50000) (q : Fin 128) : idx_main_v59 (ix2 r q) = ix2 r (0 : Fin 1) :=
  funext fun a => Fin.ext (by match a with | ⟨0, _⟩ => rfl | ⟨1, _⟩ => rfl)

theorem idx_v64 (r : Fin 50000) (q : Fin 128) : idx_main_v64 (ix2 r q) = ix2 r (0 : Fin 1) :=
  funext fun a => Fin.ext (by match a with | ⟨0, _⟩ => rfl | ⟨1, _⟩ => rfl)

/-- A vector [50000] set up as a column is read at r. -/
theorem idx_v41 (r : Fin 50000) : idx_main_v41 (ix2 r (0 : Fin 1)) = ix1 r :=
  funext fun a => Fin.ext (by match a with | ⟨0, _⟩ => rfl)

theorem idx_v49 (r : Fin 50000) : idx_main_v49 (ix2 r (0 : Fin 1)) = ix1 r :=
  funext fun a => Fin.ext (by match a with | ⟨0, _⟩ => rfl)

theorem idx_v56 (r : Fin 50000) : idx_main_v56 (ix2 r (0 : Fin 1)) = ix1 r :=
  funext fun a => Fin.ext (by match a with | ⟨0, _⟩ => rfl)

/-- A row [1,128] broadcast along the nodes is read at (0, q). -/
theorem idx_v46 (r : Fin 50000) (q : Fin 128) : idx_main_v46 (ix2 r q) = ix2 (0 : Fin 1) q :=
  funext fun a => Fin.ext (by match a with | ⟨0, _⟩ => rfl | ⟨1, _⟩ => rfl)

theorem idx_v67 (r : Fin 50000) (q : Fin 128) : idx_main_v67 (ix2 r q) = ix2 (0 : Fin 1) q :=
  funext fun a => Fin.ext (by match a with | ⟨0, _⟩ => rfl | ⟨1, _⟩ => rfl)

theorem idx_v70 (r : Fin 50000) (q : Fin 128) : idx_main_v70 (ix2 r q) = ix2 (0 : Fin 1) q :=
  funext fun a => Fin.ext (by match a with | ⟨0, _⟩ => rfl | ⟨1, _⟩ => rfl)

/-- A channel vector [128] set up as a row is read at q. -/
theorem idx_v45 (q : Fin 128) : idx_main_v45 (ix2 (0 : Fin 1) q) = ix1 q :=
  funext fun a => Fin.ext (by match a with | ⟨0, _⟩ => rfl)

theorem idx_v66 (q : Fin 128) : idx_main_v66 (ix2 (0 : Fin 1) q) = ix1 q :=
  funext fun a => Fin.ext (by match a with | ⟨0, _⟩ => rfl)

theorem idx_v69 (q : Fin 128) : idx_main_v69 (ix2 (0 : Fin 1) q) = ix1 q :=
  funext fun a => Fin.ext (by match a with | ⟨0, _⟩ => rfl)

/-! ## The stages, bottom-up -/

variable (x0 : (⟨S50000x128, .f32⟩ : BufTy).Contents (Elt Ideal)) (x1 : (⟨S2x600000, .i32⟩ : BufTy).Contents (Elt Ideal))
  (x2 : (⟨S128x128, .f32⟩ : BufTy).Contents (Elt Ideal)) (x3 x4 x5 : (⟨S128, .f32⟩ : BufTy).Contents (Elt Ideal))

/-- Row r before normalisation, as the row function of the three earlier stages and the bias. -/
abbrev u (r : Fin 50000) : Fin 128 → EReal :=
  Cert.Row.pre (fun k => val_main_v39 (F := Ideal) x0 x1 x2 (ix2 r k)) (fun k => val_main_v4 (F := Ideal) x0 x2 (ix2 r k))
    (val_main_v40 (F := Ideal) x1 (ix1 r)) (fun k => x3 (ix1 k))

/-- The stage before normalisation: messages plus the self loop's share of x·W plus the bias. -/
theorem v47_at (r : Fin 50000) (k : Fin 128) :
    val_main_v47 (F := Ideal) x0 x1 x2 x3 (ix2 r k) = u x0 x1 x2 x3 r k := by
  rw [val_main_v47_apply, val_main_v44_apply, val_main_v43_apply, val_main_v42_apply, val_main_v41_apply,
    val_main_v46_apply, val_main_v45_apply, idx_v42, idx_v41, idx_v46, idx_v45, Ideal.addf_def, Ideal.addf_def,
    Ideal.mulf_def]
  rfl

/-- The mean of row r: the first row sum (its zero initial value dropped) over the word for 128. -/
theorem v51_at (r : Fin 50000) :
    val_main_v51 (F := Ideal) x0 x1 x2 x3 (ix2 r (0 : Fin 1)) = Cert.Row.mean (u x0 x1 x2 x3 r) := by
  rw [val_main_v51_apply, val_main_v49_apply, val_main_v50_apply, idx_v49, val_main_v48_apply, val_main_cst_8_apply,
    val_main_cst_9_apply, Ideal.hostDivf_def, Ideal.ofBits_def, Ideal.ofBits_def, Ideal.ofBits_zero_f32, zero_add]
  have hs : ∑ k : Fin 128, val_main_v47 (F := Ideal) x0 x1 x2 x3 (idx_main_v48 (ix1 r) k)
      = ∑ k : Fin 128, u x0 x1 x2 x3 r k :=
    Finset.sum_congr rfl fun k _ => by rw [idx_v48, v47_at]
  rw [hs]
  rfl

/-- The centred row, as the first of the program's two subtractions writes it. -/
theorem v53_at (r : Fin 50000) (k : Fin 128) :
    val_main_v53 (F := Ideal) x0 x1 x2 x3 (ix2 r k) = Cert.Row.centred (u x0 x1 x2 x3 r) k := by
  rw [val_main_v53_apply, val_main_v52_apply, idx_v52, v47_at, v51_at, Ideal.subf_def]
  rfl

/-- The centred row again, as the second subtraction writes it. -/
theorem v60_at (r : Fin 50000) (k : Fin 128) :
    val_main_v60 (F := Ideal) x0 x1 x2 x3 (ix2 r k) = Cert.Row.centred (u x0 x1 x2 x3 r) k := by
  rw [val_main_v60_apply, val_main_v59_apply, idx_v59, v47_at, v51_at, Ideal.subf_def]
  rfl

/-- The variance of row r: the mean of the squared centred row. -/
theorem v58_at (r : Fin 50000) :
    val_main_v58 (F := Ideal) x0 x1 x2 x3 (ix2 r (0 : Fin 1))
      = Cert.Row.mean (fun q => Cert.Row.centred (u x0 x1 x2 x3 r) q * Cert.Row.centred (u x0 x1 x2 x3 r) q) := by
  rw [val_main_v58_apply, val_main_v56_apply, val_main_v57_apply, idx_v56, val_main_v55_apply, val_main_cst_10_apply,
    val_main_cst_11_apply, Ideal.hostDivf_def, Ideal.ofBits_def, Ideal.ofBits_def, Ideal.ofBits_zero_f32, zero_add]
  have hs : ∑ k : Fin 128, val_main_v54 (F := Ideal) x0 x1 x2 x3 (idx_main_v55 (ix1 r) k)
      = ∑ k : Fin 128, Cert.Row.centred (u x0 x1 x2 x3 r) k * Cert.Row.centred (u x0 x1 x2 x3 r) k :=
    Finset.sum_congr rfl fun k _ => by rw [idx_v55, val_main_v54_apply, v53_at, Ideal.mulf_def]
  rw [hs]
  rfl

/-- The inverse root of the variance plus ε. -/
theorem v63_at (r : Fin 50000) :
    val_main_v63 (F := Ideal) x0 x1 x2 x3 (ix2 r (0 : Fin 1)) = Cert.Row.invDev (u x0 x1 x2 x3 r) := by
  rw [val_main_v63_apply, val_main_v62_apply, val_main_v61_apply, val_main_cst_12_apply, v58_at,
    Ideal.hostUnary_rsqrt_def, Ideal.addf_def, Ideal.ofBits_def]
  rfl

/-- The normalised row under the gain and the shift. -/
theorem v71_at (r : Fin 50000) (q : Fin 128) :
    val_main_v71 (F := Ideal) x0 x1 x2 x3 x4 x5 (ix2 r q)
      = Cert.Row.normed (u x0 x1 x2 x3 r) (fun k => x4 (ix1 k)) (fun k => x5 (ix1 k)) q := by
  rw [val_main_v71_apply, val_main_v68_apply, val_main_v65_apply, val_main_v64_apply, val_main_v67_apply,
    val_main_v66_apply, val_main_v70_apply, val_main_v69_apply, idx_v64, idx_v67, idx_v66, idx_v70, idx_v69,
    v60_at, v63_at, Ideal.addf_def, Ideal.mulf_def, Ideal.mulf_def]
  rfl

/-- The last stage: the leaky rectifier of the normalised row plus the input row. -/
theorem ref_at (x0 : (⟨S50000x128, .f32⟩ : BufTy).Contents (Elt Ideal)) (x1 : (⟨S2x600000, .i32⟩ : BufTy).Contents (Elt Ideal))
    (x2 : (⟨S128x128, .f32⟩ : BufTy).Contents (Elt Ideal)) (x3 x4 x5 : (⟨S128, .f32⟩ : BufTy).Contents (Elt Ideal))
    (r : Fin 50000) (q : Fin 128) :
    val_main_v77 (F := Ideal) x0 x1 x2 x3 x4 x5 (ix2 r q)
      = Cert.Row.out (fun k => val_main_v39 (F := Ideal) x0 x1 x2 (ix2 r k)) (fun k => val_main_v4 (F := Ideal) x0 x2 (ix2 r k))
          (val_main_v40 (F := Ideal) x1 (ix1 r)) (fun k => x3 (ix1 k)) (fun k => x4 (ix1 k)) (fun k => x5 (ix1 k))
          (fun k => x0 (ix2 r k)) q := by
  rw [val_main_v77_apply, val_main_v76_apply, val_main_v73_apply, val_main_v75_apply, val_main_v72_apply,
    val_main_v74_apply, val_main_cst_13_apply, val_main_cst_14_apply, v71_at, Ideal.addf_def, Ideal.mulf_def,
    Ideal.ofBits_def, Ideal.ofBits_def]
  rfl

end Cert.RefRow

end
-- ==== Proof.Bridge.lean ====
/-
  The idealized kernel's result array is the reference's final stage of the argument arrays.

  The first launch leaves the product x · W (the reference's product stage). The host stretch turns it and the edge list
  into the messages, the self-loop weights, and the bias, gain and shift rows — the reference's stages of the same
  operations. The second launch leaves the array whose row r is the row function of rows r of those arrays; and the
  reference's final stage, read at (r, q), is the same row function of the same rows. A column [50000, 1] or a row
  [1, 128] made by reshaping a vector reads, at (r, 0) or (0, k), the vector's entry r or k.
-/
import proofs.«145077_j41188736368774_1_alg».proof.Proof.KernelRun
import proofs.«145077_j41188736368774_1_alg».proof.Proof.ProductValue
import proofs.«145077_j41188736368774_1_alg».proof.Proof.HostMiddle
import proofs.«145077_j41188736368774_1_alg».proof.Proof.NormValue
import proofs.«145077_j41188736368774_1_alg».proof.Proof.RefRow

set_option maxRecDepth 16384

noncomputable section

namespace Cert.KernelIdeal.Bridge

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- A vector reshaped to a column, read at (r, 0), is the vector at r. -/
theorem column_entry (v : S50000.Idx → EReal) (r : Fin 50000) :
    shapeCast S50000x1 v shapeCasts_S50000_S50000x1 (ix2 r (0 : Fin 1)) = v (ix1 r) :=
  shapeCast_apply v shapeCasts_S50000_S50000x1 (ix2 r (0 : Fin 1)) (ix1 r)
    (by rw [Shape.rowMajor_val_one, Shape.rowMajor_val_two]; show r.val = r.val * 1 + 0; omega)

/-- A vector reshaped to a row, read at (0, k), is the vector at k. -/
theorem row_entry (v : S128.Idx → EReal) (k : Fin 128) :
    shapeCast S1x128 v shapeCasts_S128_S1x128 (ix2 (0 : Fin 1) k) = v (ix1 k) :=
  shapeCast_apply v shapeCasts_S128_S1x128 (ix2 (0 : Fin 1) k) (ix1 k)
    (by rw [Shape.rowMajor_val_one, Shape.rowMajor_val_two]; show k.val = 0 * 128 + k.val; omega)

/-! ## The buffers after the first launch -/

theorem w1_product (c : Dev nD) :
    W1 m ρ c (Proc.devRef .tc main_v0)
      = Cert.ReferenceIdeal.Read.val_main_v4 (F := Ideal) (m ((c : Thread nD τ).loc main_arg0)) (m ((c : Thread nD τ).loc main_arg2)) :=
  (W1_arr m ρ c 2).trans ((Cert.KernelIdeal.Product.final (V0 m ρ) c).trans rfl)

theorem w1_input (c : Dev nD) : W1 m ρ c (Proc.devRef .tc main_arg0) = m ((c : Thread nD τ).loc main_arg0) :=
  (W1_arr m ρ c 0).trans ((((dat0 (V0 m ρ) c).arrAt_in 0 rfl _).trans (A_eq0 (V0 m ρ) c 0)).trans rfl)

theorem w1_edges (c : Dev nD) : W1 m ρ c (Proc.devRef .tc main_arg1) = m ((c : Thread nD τ).loc main_arg1) :=
  (W1_of_ne m ρ c main_arg1 (by decide)).trans rfl
theorem w1_bias (c : Dev nD) : W1 m ρ c (Proc.devRef .tc main_arg3) = m ((c : Thread nD τ).loc main_arg3) :=
  (W1_of_ne m ρ c main_arg3 (by decide)).trans rfl
theorem w1_gain (c : Dev nD) : W1 m ρ c (Proc.devRef .tc main_arg4) = m ((c : Thread nD τ).loc main_arg4) :=
  (W1_of_ne m ρ c main_arg4 (by decide)).trans rfl
theorem w1_shift (c : Dev nD) : W1 m ρ c (Proc.devRef .tc main_arg5) = m ((c : Thread nD τ).loc main_arg5) :=
  (W1_of_ne m ρ c main_arg5 (by decide)).trans rfl

/-! ## The arrays the second launch finds -/

theorem v2_messages (c : Dev nD) :
    V2 m ρ c main_v39 = Cert.ReferenceIdeal.Read.val_main_v39 (F := Ideal) (m ((c : Thread nD τ).loc main_arg0))
      (m ((c : Thread nD τ).loc main_arg1)) (m ((c : Thread nD τ).loc main_arg2)) := by
  refine (Cert.KernelIdeal.Middle.after_messages (W1 m ρ c)).trans ?_
  rw [w1_product, w1_edges]
  exact (Cert.KernelIdeal.Middle.ref_messages _ _ _).symm

theorem v2_product (c : Dev nD) :
    V2 m ρ c main_v0 = Cert.ReferenceIdeal.Read.val_main_v4 (F := Ideal) (m ((c : Thread nD τ).loc main_arg0)) (m ((c : Thread nD τ).loc main_arg2)) :=
  (Cert.KernelIdeal.Middle.after_product (W1 m ρ c)).trans (w1_product m ρ c)

theorem v2_selfweight (c : Dev nD) :
    V2 m ρ c main_v41 = shapeCast S50000x1 (Cert.ReferenceIdeal.Read.val_main_v40 (F := Ideal) (m ((c : Thread nD τ).loc main_arg1))) shapeCasts_S50000_S50000x1 := by
  refine (Cert.KernelIdeal.Middle.after_selfweight (W1 m ρ c)).trans ?_
  rw [w1_edges]

theorem v2_bias (c : Dev nD) : V2 m ρ c main_v42 = shapeCast S1x128 (m ((c : Thread nD τ).loc main_arg3)) shapeCasts_S128_S1x128 := by
  refine (Cert.KernelIdeal.Middle.after_bias (W1 m ρ c)).trans ?_
  rw [w1_bias]
theorem v2_gain (c : Dev nD) : V2 m ρ c main_v43 = shapeCast S1x128 (m ((c : Thread nD τ).loc main_arg4)) shapeCasts_S128_S1x128 := by
  refine (Cert.KernelIdeal.Middle.after_gain (W1 m ρ c)).trans ?_
  rw [w1_gain]
theorem v2_shift (c : Dev nD) : V2 m ρ c main_v44 = shapeCast S1x128 (m ((c : Thread nD τ).loc main_arg5)) shapeCasts_S128_S1x128 := by
  refine (Cert.KernelIdeal.Middle.after_shift (W1 m ρ c)).trans ?_
  rw [w1_shift]
theorem v2_input (c : Dev nD) : V2 m ρ c main_arg0 = m ((c : Thread nD τ).loc main_arg0) :=
  (Cert.KernelIdeal.Middle.after_input (W1 m ρ c)).trans (w1_input m ρ c)

/-! ## The result -/

/-- The layer's output of the arrays the second launch finds is the reference's final stage of the arguments. -/
theorem rows_eq (c : Dev nD) :
    Cert.KernelIdeal.Norm.rows (V2 m ρ) c
      = Cert.ReferenceIdeal.Read.val_main_v77 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) := by
  funext i
  obtain ⟨r, q, rfl⟩ : ∃ (r : Fin 50000) (q : Fin 128), i = ix2 r q := ⟨i 0, i 1, eq_ix2 i⟩
  rw [Cert.RefRow.ref_at]
  show Cert.KernelIdeal.Norm.rowAt (V2 m ρ) c r q = _
  unfold Cert.KernelIdeal.Norm.rowAt
  rw [v2_messages, v2_product, v2_selfweight, v2_bias, v2_gain, v2_shift, v2_input]
  have hb : ∀ k : Fin 128, shapeCast S1x128 (m ((c : Thread nD τ).loc main_arg3)) shapeCasts_S128_S1x128 (ix2 (0 : Fin 1) k)
      = m ((c : Thread nD τ).loc main_arg3) (ix1 k) := fun k => row_entry _ k
  have hg : ∀ k : Fin 128, shapeCast S1x128 (m ((c : Thread nD τ).loc main_arg4)) shapeCasts_S128_S1x128 (ix2 (0 : Fin 1) k)
      = m ((c : Thread nD τ).loc main_arg4) (ix1 k) := fun k => row_entry _ k
  have hs : ∀ k : Fin 128, shapeCast S1x128 (m ((c : Thread nD τ).loc main_arg5)) shapeCasts_S128_S1x128 (ix2 (0 : Fin 1) k)
      = m ((c : Thread nD τ).loc main_arg5) (ix1 k) := fun k => row_entry _ k
  simp only [column_entry, hb, hg, hs]

/-- The result array after the run is the reference's final stage of the argument arrays. -/
theorem result (c : Dev nD) :
    W3 m ρ c (Proc.devRef .tc main_v45)
      = Cert.ReferenceIdeal.Read.val_main_v77 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) :=
  (Cert.KernelIdeal.Run.result_eq m ρ c).trans ((Cert.KernelIdeal.Norm.final (V2 m ρ) c).trans (rows_eq m ρ c))

end Cert.KernelIdeal.Bridge

end
-- ==== Proof.lean ====
/-
  A graph-convolution layer with layer normalisation, a leaky rectifier and a residual, over 50000 nodes with 128
  channels and 600000 edges: the kernel against its jnp reference, on the extended reals.

  Both programs compute, for node r and channel q,
      leaky ( normalise ( agg r + xw r · d r + bias ) q ) + x r q ,
  where xw = x · W, d r is the squared inverse-root degree of r (its self loop's weight), agg r is the sum over the edges
  into r of the source's row of xw times the edge's weight, and normalise takes off the row's mean, divides by the root
  of its variance plus ε, and applies the channels' gain and shift. The kernel forms xw on the matrix unit block of rows
  by block of rows, leaves the degree count, the gather and the scatter-add to the host — the reference's own operations —
  and fuses the rest block of rows by block of rows; the reference does everything on whole arrays. A row of a product,
  and a row's mean and variance, depend on that row only, so tiling the rows changes nothing; the matrix unit's operands'
  change of float format is the identity on the extended reals; a lane sum and the host's reduction are the same finite
  sum. No law that needs finiteness is used.

  The frames are generated. The ideal pass rewrote nothing, so its ledger is empty. The algebraic claim: the kernel's run
  ends with its result array at the reference's final stage of the argument arrays (Proof/Bridge.lean, over
  Proof/ProductValue.lean, Proof/HostMiddle.lean, Proof/NormValue.lean, Proof/PostRow.lean, Proof/RefRow.lean and
  Proof/RowNorm.lean), and the reference's run ends there by its own run read back.
-/
import proofs.«145077_j41188736368774_1_alg».proof.Defs
import proofs.«145077_j41188736368774_1_alg».proof.Proof.Gen.Kernel
import proofs.«145077_j41188736368774_1_alg».proof.Proof.Gen.Kernel.Skeleton
import proofs.«145077_j41188736368774_1_alg».proof.Proof.Gen.Kernel.Launch
import proofs.«145077_j41188736368774_1_alg».proof.Proof.Gen.Kernel.Points
import proofs.«145077_j41188736368774_1_alg».proof.Proof.Gen.Kernel.Frame
import proofs.«145077_j41188736368774_1_alg».proof.Proof.Gen.KernelIdeal
import proofs.«145077_j41188736368774_1_alg».proof.Proof.Gen.KernelIdeal.Skeleton
import proofs.«145077_j41188736368774_1_alg».proof.Proof.Gen.KernelIdeal.Launch
import proofs.«145077_j41188736368774_1_alg».proof.Proof.Gen.KernelIdeal.Points
import proofs.«145077_j41188736368774_1_alg».proof.Proof.Gen.KernelIdeal.Frame
import proofs.«145077_j41188736368774_1_alg».proof.Proof.Gen.ReferenceIdeal
import proofs.«145077_j41188736368774_1_alg».proof.Proof.Gen.Pre_finite_inputs
import proofs.«145077_j41188736368774_1_alg».proof.Proof.RefRun
import proofs.«145077_j41188736368774_1_alg».proof.Proof.RefRead
import proofs.«145077_j41188736368774_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ
theorem frame_ideal : Cert.frame_KernelIdeal := fun m ρ _ => Cert.KernelIdeal.Gen.frame m ρ
theorem frame_reference : Cert.frame_ReferenceIdeal := fun m ρ _ =>
  (θ_run Cert.ReferenceIdeal.defs _ _).mono (fun _ h c => (h c).2) (Cert.ReferenceIdeal.Value.run (F := Ideal) m ρ)

/-- From memories that agree on the arguments both runs end with the result at the reference's final stage of the
    kernel's argument arrays. -/
theorem algebraic : Cert.algebraic_KernelIdeal_ReferenceIdeal := by
  intro m ρ m' ρ' _ hagree
  refine ⟨fun c => Cert.ReferenceIdeal.Read.val_main_v77 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Bridge.result m ρ c), (h c).2⟩)
      (Cert.KernelIdeal.Run.run_result (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v77_eq, (hagree c).1, (hagree c).2.1, (hagree c).2.2.1, (hagree c).2.2.2.1,
      (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_ideal, frame_reference, trivial, algebraic⟩

end Cert.Proof

end
